-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S400x10000 : Shape := ⟨2, ![400, 10000]⟩
abbrev S400x128 : Shape := ⟨2, ![400, 128]⟩

abbrev nBuf : Space → Nat
  | .hbm => 38
  | .vmem => 29
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S10000x128, .bf16⟩
  | .hbm, ⟨34, _⟩ => ⟨S10000x128, .bf16⟩
  | .hbm, ⟨35, _⟩ => ⟨S10000x10000, .bf16⟩
  | .hbm, ⟨36, _⟩ => ⟨S10000x128, .bf16⟩
  | .hbm, ⟨37, _⟩ => ⟨S10000x128, .f32⟩
  | .local _ .vmem, ⟨0, _⟩ => ⟨S10000x128, .f32⟩
  | .local _ .vmem, ⟨1, _⟩ => ⟨S128x128, .bf16⟩
  | .local _ .vmem, ⟨2, _⟩ => ⟨S1x128, .f32⟩
  | .local _ .vmem, ⟨3, _⟩ => ⟨S10000x128, .bf16⟩
  | .local _ .vmem, ⟨4, _⟩ => ⟨S400x10000, .f32⟩
  | .local _ .vmem, ⟨5, _⟩ => ⟨S400x10000, .f32⟩
  | .local _ .vmem, ⟨6, _⟩ => ⟨S10000x128, .bf16⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S400x128, .bf16⟩
  | .local _ .vmem, ⟨12, _⟩ => ⟨S400x128, .bf16⟩
  | .local _ .vmem, ⟨13, _⟩ => ⟨S400x10000, .bf16⟩
  | .local _ .vmem, ⟨14, _⟩ => ⟨S400x10000, .bf16⟩
  | .local _ .vmem, ⟨15, _⟩ => ⟨S400x10000, .bf16⟩
  | .local _ .vmem, ⟨16, _⟩ => ⟨S400x10000, .bf16⟩
  | .local _ .vmem, ⟨17, _⟩ => ⟨S10000x128, .bf16⟩
  | .local _ .vmem, ⟨18, _⟩ => ⟨S1x128, .f32⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S400x128, .bf16⟩
  | .local _ .vmem, ⟨23, _⟩ => ⟨S400x128, .bf16⟩
  | .local _ .vmem, ⟨24, _⟩ => ⟨S400x10000, .bf16⟩
  | .local _ .vmem, ⟨25, _⟩ => ⟨S400x10000, .bf16⟩
  | .local _ .vmem, ⟨26, _⟩ => ⟨S10000x128, .bf16⟩
  | .local _ .vmem, ⟨27, _⟩ => ⟨S400x128, .f32⟩
  | .local _ .vmem, ⟨28, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x10000 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S128 : S_.BroadcastsInDim S128 (![] : Fin 0 → Fin S128.rank)
  shapeCasts_S128_S1x128 : S128.ShapeCasts S1x128
  transposes_S128x128_S128x128_1_0 : S128x128.Transposes [1, 0] S128x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x128_S10000x128 : S10000x128.ShapeCasts S10000x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .bf16 = 32 ∨ (Rect.block (s := S10000x128) S400x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x10000.size a ≤ S10000x10000.size a
  hwx1_7 : ∀ i : grid1.Coords, EltTy.bits .bf16 = 32 ∨ (Rect.block (s := S10000x10000) S400x10000.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .bf16 = 32 ∨ (Rect.block (s := S10000x128) S400x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v11) false false (stage0_1 0) (sem0_1 0) (Memref.isWhole_whole _) (hstage0_1 0)

abbrev win0_2 : Pipeline.Window sig grid0 :=
  Pipeline.Window.whole (Memref.whole main_v16) false false (stage0_2 0) (sem0_2 0) (Memref.isWhole_whole _) (hstage0_2 0)

abbrev win0_3 : Pipeline.Window sig grid0 :=
  Pipeline.Window.whole (Memref.whole main_v19) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S400x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S400x10000.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v20_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S128x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S128x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel's run with its result named.

  The program is four launches in a row after a stretch of host operations.  Between consecutive segments the
  contents of every buffer are known: after the host stretch they are the host operations applied to the launch
  memory, and after each launch they are the entry contents with that launch's arrays replaced by what its
  write-backs leave.  Folding these five steps gives the contents of every buffer at the return; in particular
  the result buffer holds the fold's value there, and every argument buffer holds what it held at launch.
-/
import proofs.«147455_g11012296147170_week1_w3_712_6_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; at the end the result buffer holds the value the fold
    of the five segments gives it, and each argument buffer holds what it held at launch. -/
theorem run_named : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.RunValue

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibDense.lean ====
/-
  A dense layer read one entry at a time, at the exact (extended-real) values.

  A dense layer sends a row r of K numbers to the N numbers  (r · W)(q) + b(q),  W a K×N matrix and b a bias of N
  numbers; the rectifier then replaces each by its maximum with zero.  On the vector unit a block of M rows goes
  through the layer at once: the M×K block times W into a zero accumulator, plus the bias — kept as a 1×N array —
  spread over the M rows.  Entry (p, q) of that block is the layer applied to row p of the block, at q: rows do not
  mix.  Stated once for every M, K, N.
-/
import Idealize.ShloMosaic.Lib.ValueIdx
import Idealize.ShloMosaic.Lib.ValueLayout
import Idealize.ShloMosaic.Lib.Pipeline.Value
import Idealize.ShloMosaic.PureOps.Ideal.Laws
import proofs.«147455_g11012296147170_week1_w3_712_6_alg».proof.Proof.LibRowDot

noncomputable section

open scoped BigOperators

namespace Cert.Dense

open Idealize.ShloMosaic Idealize.ShloMosaic.ValueIdx Cert.RowDot

/-- A dense layer on one row: entry q is (row · W)(q) + b(q). -/
def dense {K N : Nat} (W : (⟨2, ![K, N]⟩ : Shape).Idx → EReal) (b : Fin N → EReal) (row : Fin K → EReal) : Fin N → EReal :=
  fun q => rowDot row W q + b q

/-- The rectifier of a row: each entry's maximum with the number the all-zero f32 word denotes. -/
def relu {N : Nat} (v : Fin N → EReal) : Fin N → EReal := fun q => max (v q) (Ideal.ofBits .f32 0x00000000#32)

/-- A bias kept as a 1×N array, as a function of the column. -/
def biasRow {N : Nat} (b : (⟨2, ![1, N]⟩ : Shape).Idx → EReal) : Fin N → EReal := fun q => b (ix2 (0 : Fin 1) q)

/-- A bias kept as a length-N array, as a function of the column. -/
def biasVec {N : Nat} (b : (⟨1, ![N]⟩ : Shape).Idx → EReal) : Fin N → EReal := fun q => b (ix1 q)

/-- A length-N bias recast as a 1×N array is the same bias. -/
theorem biasRow_shapeCast {N : Nat} (b : (⟨1, ![N]⟩ : Shape).Idx → EReal) (h : (⟨1, ![N]⟩ : Shape).ShapeCasts ⟨2, ![1, N]⟩) :
    biasRow (shapeCast ⟨2, ![1, N]⟩ b h) = biasVec b :=
  funext fun q => shapeCast_a_1a_apply b h 0 q

/-- The vector unit's product of a block of M rows with a recast K×N matrix into zero, at entry (p, q): row p times W. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- The vector unit's layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w (biasRow b) (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_self]
  rfl

/-- The same with the rectifier and a change of float format after it (which keeps every value). -/
theorem relu_dense_block_apply {M K N : Nat} {φ₁ φ₂ ψ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    (truncf ψ (maximumf (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32))) hψ : FVec Ideal ⟨2, ![M, N]⟩ ψ) (ix2 p q)
      = relu (dense w (biasRow b) (rowOf a p)) q := by
  show max (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc) (ix2 p q)) (Ideal.ofBits .f32 0x00000000#32) = _
  rw [dense_block_apply]
  rfl

end Cert.Dense

end
-- ==== Proof.LibGraphLayer.lean ====
/-
  One layer of a graph-convolution encoder read one entry at a time, at the exact (extended-real) values.

  A node's row of the adjacency matrix, a, of J numbers, is first aggregated against the J×N matrix B of the
  nodes' features:  (a · B)(k).  Each of the N aggregated numbers is scaled by s(k), shifted by t(k) and rectified
  (its maximum with zero) — the hidden row.  The hidden row then goes through a dense layer with an N×N' matrix W
  and a bias b:  (hidden · W)(q) + b(q).  On the vector unit a block of M rows of the adjacency matrix goes through
  all of this at once; entry (p, q) of the result is the layer applied to row p of the block, at q: rows do not mix.
  Stated once for every M, J, N, N'.
-/
import Idealize.ShloMosaic.Lib.ValueIdx
import Idealize.ShloMosaic.Lib.ValueLayout
import Idealize.ShloMosaic.Lib.Pipeline.Value
import Idealize.ShloMosaic.PureOps.Ideal.Laws
import proofs.«147455_g11012296147170_week1_w3_712_6_alg».proof.Proof.LibDense

noncomputable section

open scoped BigOperators

namespace Cert.GraphLayer

open Idealize.ShloMosaic Idealize.ShloMosaic.ValueIdx Cert.RowDot Cert.Dense

/-- The hidden row of a node: its adjacency row aggregated against B, each entry scaled, shifted and rectified. -/
def hidden {J N : Nat} (B : (⟨2, ![J, N]⟩ : Shape).Idx → EReal) (s t : Fin N → EReal) (a : Fin J → EReal) : Fin N → EReal :=
  fun k => max (rowDot a B k * s k + t k) (Ideal.ofBits .f32 0x00000000#32)

/-- One fused layer on a node: the dense layer of its hidden row. -/
def layer {J N N' : Nat} (B : (⟨2, ![J, N]⟩ : Shape).Idx → EReal) (s t : Fin N → EReal)
    (W : (⟨2, ![N, N']⟩ : Shape).Idx → EReal) (b : Fin N' → EReal) (a : Fin J → EReal) : Fin N' → EReal :=
  dense W b (hidden B s t a)

/-- The vector unit's hidden block — the product of a block of M adjacency rows with B into zero, times the scale
    spread over the rows, plus the shift spread over the rows, rectified, its float format changed — at entry (p, k):
    the hidden row of row p of the block. -/
theorem hidden_block_apply {M J N : Nat} {φ₁ φ₂ ψ : FTy} (prec : Option ContractPrecision)
    (a : FVec Ideal (⟨2, ![M, J]⟩ : Shape) φ₁) (B : FVec Ideal (⟨2, ![J, N]⟩ : Shape) φ₂)
    (s t : FVec Ideal (⟨2, ![1, N]⟩ : Shape) .f32)
    (hB : (⟨2, ![J, N]⟩ : Shape).ShapeCasts ⟨2, ![J, N]⟩)
    (hs : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (k : Fin N) :
    (truncf ψ (maximumf (addf (mulf (matmul (DotDims.plain M J N) prec a (shapeCast ⟨2, ![J, N]⟩ B hB)
            (constant (F := Ideal) ⟨2, ![M, N]⟩ .f32 0x00000000#32))
          (broadcastTo ⟨2, ![M, N]⟩ (shapeCast ⟨2, ![1, N]⟩ s hs) hbc))
        (broadcastTo ⟨2, ![M, N]⟩ (shapeCast ⟨2, ![1, N]⟩ t hs) hbc))
      (broadcast ⟨2, ![M, N]⟩ (Scalar.ofBits (F := Ideal) .f32 0x00000000#32))) hψ : FVec Ideal ⟨2, ![M, N]⟩ ψ) (ix2 p k)
      = hidden B (biasRow s) (biasRow t) (rowOf a p) k := by
  show max (matmul (DotDims.plain M J N) prec a (shapeCast ⟨2, ![J, N]⟩ B hB)
            (constant (F := Ideal) ⟨2, ![M, N]⟩ .f32 0x00000000#32) (ix2 p k)
          * broadcastTo ⟨2, ![M, N]⟩ (shapeCast ⟨2, ![1, N]⟩ s hs) hbc (ix2 p k)
        + broadcastTo ⟨2, ![M, N]⟩ (shapeCast ⟨2, ![1, N]⟩ t hs) hbc (ix2 p k)) (Ideal.ofBits .f32 0x00000000#32) = _
  rw [matmul_block_apply, broadcastTo_1b_ab_apply, broadcastTo_1b_ab_apply, shapeCast_self, shapeCast_self]
  rfl

/-- The vector unit's fused layer on a block of M adjacency rows, at entry (p, q): the layer applied to row p. -/
theorem layer_block_apply {M J N N' : Nat} {φ₁ φ₂ φ₃ ψ ψ' : FTy} (prec prec' : Option ContractPrecision)
    (a : FVec Ideal (⟨2, ![M, J]⟩ : Shape) φ₁) (B : FVec Ideal (⟨2, ![J, N]⟩ : Shape) φ₂)
    (s t : FVec Ideal (⟨2, ![1, N]⟩ : Shape) .f32)
    (W : FVec Ideal (⟨2, ![N, N']⟩ : Shape) φ₃) (b : FVec Ideal (⟨2, ![1, N']⟩ : Shape) .f32)
    (hB : (⟨2, ![J, N]⟩ : Shape).ShapeCasts ⟨2, ![J, N]⟩)
    (hs : (⟨2, ![1, N]⟩ : Shape).ShapeCasts ⟨2, ![1, N]⟩) (hbc : (⟨2, ![1, N]⟩ : Shape).Broadcasts ⟨2, ![M, N]⟩)
    (hW : (⟨2, ![N, N']⟩ : Shape).ShapeCasts ⟨2, ![N, N']⟩)
    (hb : (⟨2, ![1, N']⟩ : Shape).ShapeCasts ⟨2, ![1, N']⟩) (hbc' : (⟨2, ![1, N']⟩ : Shape).Broadcasts ⟨2, ![M, N']⟩)
    (hψ : ψ.bits < FTy.f32.bits) (hψ' : ψ'.bits < FTy.f32.bits) (p : Fin M) (q : Fin N') :
    (truncf ψ' (addf (matmul (DotDims.plain M N N') prec'
          (truncf ψ (maximumf (addf (mulf (matmul (DotDims.plain M J N) prec a (shapeCast ⟨2, ![J, N]⟩ B hB)
                  (constant (F := Ideal) ⟨2, ![M, N]⟩ .f32 0x00000000#32))
                (broadcastTo ⟨2, ![M, N]⟩ (shapeCast ⟨2, ![1, N]⟩ s hs) hbc))
              (broadcastTo ⟨2, ![M, N]⟩ (shapeCast ⟨2, ![1, N]⟩ t hs) hbc))
            (broadcast ⟨2, ![M, N]⟩ (Scalar.ofBits (F := Ideal) .f32 0x00000000#32))) hψ : FVec Ideal ⟨2, ![M, N]⟩ ψ)
          (shapeCast ⟨2, ![N, N']⟩ W hW) (constant (F := Ideal) ⟨2, ![M, N']⟩ .f32 0x00000000#32))
        (broadcastTo ⟨2, ![M, N']⟩ (shapeCast ⟨2, ![1, N']⟩ b hb) hbc')) hψ' : FVec Ideal ⟨2, ![M, N']⟩ ψ') (ix2 p q)
      = layer B (biasRow s) (biasRow t) W (biasRow b) (rowOf a p) q := by
  refine (dense_block_apply prec' _ W b hW hb hbc' p q).trans ?_
  unfold layer
  refine congrArg (fun r : Fin N → EReal => dense W (biasRow b) r q) (funext fun k => ?_)
  exact hidden_block_apply prec a B s t hB hs hbc hψ p k

end Cert.GraphLayer

end
-- ==== Proof.Encoder.lean ====
/-
  A three-layer graph-convolution encoder as ONE function of its arguments, entry by entry, at the exact
  (extended-real) values.

  With A the 10000×10000 adjacency matrix and x the 10000×128 node features, each layer first sends every node's
  features through a dense map  h ↦ h · Wᵀ + b  and then aggregates over neighbours,  A · (h · Wᵀ + b).  Between
  layers each aggregated number is normalised by the constant  c = 1 / √(1 + ε)  (ε = 10⁻⁵ as the f32 number
  1.00001), scaled by γ, shifted by β and rectified.  Written per node: the features of the next dense map at node
  n are  layer(row n of A)  — the aggregation of row n against the previous dense map's output, scaled by γ·c,
  shifted by β, rectified, and sent through the next dense map — so the whole encoder is

      A · layer₂(A · layer₁(A · dense₁ x)).

  The one algebraic law the two programs differ by: dividing by a nonzero real r and then multiplying by γ is
  multiplying by γ · (1 / r); on the extended reals this needs only that r is a nonzero REAL (division by it is
  multiplication by its reciprocal) and that multiplication is commutative and associative — no finiteness of
  the number divided.
-/
import Idealize.ShloMosaic.Lib.ValueIdx
import Idealize.ShloMosaic.PureOps.Ideal
import proofs.«147455_g11012296147170_week1_w3_712_6_alg».proof.Proof.LibGraphLayer

noncomputable section

open scoped BigOperators

namespace Cert.Encoder

open Idealize.ShloMosaic Idealize.ShloMosaic.ValueIdx Cert.RowDot Cert.Dense Cert.GraphLayer

/-! ## The normalising constant -/

/-- The f32 number 1.00001 is a positive real. -/
theorem var_eps_pos : ∃ κ : ℝ, 0 < κ ∧ Ideal.ofBits .f32 0x3F800054#32 = ((κ : ℝ) : EReal) := by
  refine ⟨8388692 / 8388608, by norm_num, ?_⟩
  simp [Ideal.ofBits, Ideal.ieee, -EReal.coe_mul]; norm_num

/-- Its square root is a nonzero real. -/
theorem std_real : ∃ r : ℝ, r ≠ 0 ∧ Ideal.sqrt (Ideal.ofBits .f32 0x3F800054#32) = ((r : ℝ) : EReal) := by
  obtain ⟨κ, hκ, e⟩ := var_eps_pos
  refine ⟨Real.sqrt κ, (Real.sqrt_pos.mpr hκ).ne', ?_⟩
  rw [e, Ideal.sqrt_coe, if_neg (not_lt.mpr hκ.le)]

/-- The f32 number 1.0 is the real 1. -/
theorem one_real : Ideal.ofBits .f32 0x3F800000#32 = 1 := by
  simp [Ideal.ofBits, Ideal.ieee, -EReal.coe_mul]; norm_num

/-- The normalising constant  1 / √1.00001. -/
def invStd : EReal := Ideal.div (Ideal.ofBits .f32 0x3F800000#32) (Ideal.sqrt (Ideal.ofBits .f32 0x3F800054#32))

/-- Dividing by √1.00001 and then scaling by γ is scaling by γ · (1 / √1.00001), for every extended real h. -/
theorem div_std_mul (h g : EReal) :
    Ideal.div h (Ideal.sqrt (Ideal.ofBits .f32 0x3F800054#32)) * g = h * (g * invStd) := by
  obtain ⟨r, hr, e⟩ := std_real
  unfold invStd
  rw [e, Ideal.div_coe hr, Ideal.div_coe hr, one_real, one_mul, mul_assoc, mul_comm ((1 / r : ℝ) : EReal) g]

/-! ## The encoder -/

/-- A weight matrix transposed: entry (k, q) of Wᵀ is entry (q, k) of W. -/
def wT (W : (⟨2, ![128, 128]⟩ : Shape).Idx → EReal) : (⟨2, ![128, 128]⟩ : Shape).Idx → EReal :=
  fun j => W (ix2 (j 1) (j 0))

/-- The scale of a normalisation:  γ(q) · c. -/
def scale (g : (⟨1, ![128]⟩ : Shape).Idx → EReal) : Fin 128 → EReal := fun q => g (ix1 q) * invStd

/-- The first dense map on every node:  x · Wᵀ + b. -/
def denseAll (x : (⟨2, ![10000, 128]⟩ : Shape).Idx → EReal) (W : (⟨2, ![128, 128]⟩ : Shape).Idx → EReal)
    (b : Fin 128 → EReal) : (⟨2, ![10000, 128]⟩ : Shape).Idx → EReal :=
  fun i => dense W b (rowOf x (i 0)) (i 1)

/-- One fused layer on every node: aggregate B over the node's neighbours, scale, shift, rectify, dense map. -/
def layerAll (A : (⟨2, ![10000, 10000]⟩ : Shape).Idx → EReal) (B : (⟨2, ![10000, 128]⟩ : Shape).Idx → EReal)
    (s t : Fin 128 → EReal) (W : (⟨2, ![128, 128]⟩ : Shape).Idx → EReal) (b : Fin 128 → EReal) :
    (⟨2, ![10000, 128]⟩ : Shape).Idx → EReal :=
  fun i => layer B s t W b (rowOf A (i 0)) (i 1)

/-- The last aggregation:  A · B. -/
def aggAll (A : (⟨2, ![10000, 10000]⟩ : Shape).Idx → EReal) (B : (⟨2, ![10000, 128]⟩ : Shape).Idx → EReal) :
    (⟨2, ![10000, 128]⟩ : Shape).Idx → EReal :=
  fun i => rowDot (rowOf A (i 0)) B (i 1)

/-- The encoder's output as one function of the twelve arguments. -/
def encoder (A : (⟨2, ![10000, 10000]⟩ : Shape).Idx → EReal) (x : (⟨2, ![10000, 128]⟩ : Shape).Idx → EReal)
    (W1 : (⟨2, ![128, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (W3 : (⟨2, ![128, 128]⟩ : Shape).Idx → EReal) (b3 : (⟨1, ![128]⟩ : Shape).Idx → EReal) :
    (⟨2, ![10000, 128]⟩ : Shape).Idx → EReal :=
  aggAll A (layerAll A (layerAll A (denseAll x (wT W1) (biasVec b1)) (scale g1) (biasVec be1) (wT W2) (biasVec b2))
    (scale g2) (biasVec be2) (wT W3) (biasVec b3))

end Cert.Encoder

end
-- ==== Proof.Bodies.lean ====
/-
  What each of the four kernel bodies stores, entry by entry, at the exact (extended-real) values.

  The first body sends all 10000 rows of x through the first dense map at once.  The second and third bodies take
  a block of 400 rows of the adjacency matrix and send them through one fused layer (aggregate, scale, shift,
  rectify, dense map); the second also stores its block of the adjacency matrix unchanged (the change of float
  format keeps every value).  The last body aggregates a block of 400 adjacency rows against its right operand.
  In every case entry (p, q) of what is stored depends on row p of the block only.
-/
import proofs.«147455_g11012296147170_week1_w3_712_6_alg».proof.Proof.Gen.KernelIdeal.Skeleton
import proofs.«147455_g11012296147170_week1_w3_712_6_alg».proof.Proof.Encoder

noncomputable section

namespace Cert.KernelIdeal.Bodies

open Idealize.ShloMosaic Idealize.ShloMosaic.ValueIdx Cert.KernelIdeal Cert.KernelIdeal.Gen
open Cert.RowDot Cert.Dense Cert.GraphLayer

/-- The first body: entry (p, q) is the dense map of row p of x, at q. -/
theorem linear_at (x0 : Vec Ideal S10000x128 .f32) (x1 : Vec Ideal S128x128 .bf16) (x2 : Vec Ideal S1x128 .f32)
    (p : Fin 10000) (q : Fin 128) :
    k0_pay1 x0 x1 x2 (ix2 p q) = dense x1 (biasRow x2) (rowOf x0 p) q := by
  unfold k0_pay1
  exact dense_block_apply (M := 10000) (K := 128) (N := 128) none x0 x1 x2 _ _ _ p q

/-- The second body's copy of its adjacency block: every entry unchanged. -/
theorem copy_at (x0 : Vec Ideal S400x10000 .f32) (y : S400x10000.Idx) : k1_pay1 x0 y = x0 y := rfl

/-- The second body: entry (p, q) is the fused layer of row p of the adjacency block, at q. -/
theorem layer1_at (x0 : Vec Ideal S400x10000 .f32) (x1 : Vec Ideal S10000x128 .bf16) (x2 x3 : Vec Ideal S1x128 .f32)
    (x4 : Vec Ideal S128x128 .bf16) (x5 : Vec Ideal S1x128 .f32) (p : Fin 400) (q : Fin 128) :
    k1_pay2 x0 x1 x2 x3 x4 x5 (ix2 p q) = layer x1 (biasRow x2) (biasRow x3) x4 (biasRow x5) (rowOf x0 p) q := by
  unfold k1_pay2
  exact layer_block_apply (M := 400) (J := 10000) (N := 128) (N' := 128) none none x0 x1 x2 x3 x4 x5 _ _ _ _ _ _ _ _ p q

/-- The third body: the same fused layer, its adjacency block already in the short float format. -/
theorem layer2_at (x0 : Vec Ideal S400x10000 .bf16) (x1 : Vec Ideal S10000x128 .bf16) (x2 x3 : Vec Ideal S1x128 .f32)
    (x4 : Vec Ideal S128x128 .bf16) (x5 : Vec Ideal S1x128 .f32) (p : Fin 400) (q : Fin 128) :
    k2_pay1 x0 x1 x2 x3 x4 x5 (ix2 p q) = layer x1 (biasRow x2) (biasRow x3) x4 (biasRow x5) (rowOf x0 p) q := by
  unfold k2_pay1
  refine (layer_block_apply (M := 400) (J := 10000) (N := 128) (N' := 128) none none
    (shapeCast S400x10000 x0 shapeCasts_S400x10000_S400x10000) x1 x2 x3 x4 x5 _ _ _ _ _ _ _ _ p q).trans ?_
  rw [shapeCast_self]

/-- The last body: entry (p, q) is row p of the adjacency block aggregated against the right operand, at q. -/
theorem final_at (x0 : Vec Ideal S400x10000 .bf16) (x1 : Vec Ideal S10000x128 .bf16) (p : Fin 400) (q : Fin 128) :
    k3_pay1 x0 x1 (ix2 p q) = rowDot (rowOf x0 p) x1 q := by
  unfold k3_pay1
  refine (matmul_block_apply (M := 400) (K := 10000) (N := 128) none
    (shapeCast S400x10000 x0 shapeCasts_S400x10000_S400x10000) x1 _ p q).trans ?_
  rw [shapeCast_self]

end Cert.KernelIdeal.Bodies

end
-- ==== Proof.BlocksLinear.lean ====
/-
  The first launch: the array it leaves is the first dense map of the arrays it finds, at every node.

  This launch has no grid: there is one point, and every window's block is its whole array — all 10000 rows of the
  node features, the transposed weights, the bias row, and all 10000 rows of the output.  What the one point writes
  back is the dense map applied to every row, and its block covers the whole output array.
-/
import proofs.«147455_g11012296147170_week1_w3_712_6_alg».proof.Proof.Gen.KernelIdeal.Frame
import proofs.«147455_g11012296147170_week1_w3_712_6_alg».proof.Proof.Bodies

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowDot Cert.Dense Cert.GraphLayer Cert.Encoder

namespace Cert.KernelIdeal.BlocksLinear

variable (V : (c : Dev nD) → (b : Ref sig .tc) → Buf (Elt Ideal) ((c : Thread nD τ).loc b))

theorem origin2 : (![0, 0] : Fin 2 → Nat) = fun _ => 0 := funext fun a => by fin_cases a <;> rfl

/-- At the one point every window's block is at the origin of its array. -/
theorem maps : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- There is a point. -/
theorem onto : ∃ t : Fin cfg0.N, win0_3.index t = ![0, 0] :=
  (by decide +kernel : ∃ t : Fin grid0.N, win0_3.index t = ![0, 0])

/-- What the point writes back is the dense map of the arrays the launch finds, read through the whole-array block. -/
theorem flushed (c : Dev nD) (t : Fin cfg0.N) :
    (dat0 (F := Ideal) V c).flushed 3 t
      = ((cfg0.win 3).blk t).view.read (Elt Ideal) (denseAll (V c main_arg1) (V c main_v11) (biasRow (V c main_v16))) := by
  show (cfg0.win 3).cut (grid0.coords t) ((dat0 V c).after 3 t) = _
  rw [after0_3]
  unfold out0_3
  rw [View.canon_unit_zero origin2]
  simp only [View.ld_unit_zero (S := S10000x128) origin2, View.ld_unit_zero (S := S128x128) origin2,
    View.ld_unit_zero (S := S1x128) origin2]
  obtain ⟨e0, e1, e2, e3, e4, e5, e6, e7⟩ := maps t
  funext j
  show k0_pay1 (iblk0 V c 0 t) (iblk0 V c 1 t) (iblk0 V c 2 t) j
    = denseAll (V c main_arg1) (V c main_v11) (biasRow (V c main_v16)) (((cfg0.win 3).blk t).view.emb j)
  refine (congrArg (k0_pay1 (iblk0 V c 0 t) (iblk0 V c 1 t) (iblk0 V c 2 t)) (eq_ix2 j)).trans ?_
  refine (Bodies.linear_at (iblk0 V c 0 t) (iblk0 V c 1 t) (iblk0 V c 2 t) (j 0) (j 1)).trans ?_
  have h0 : (iblk0 V c 0 t : S10000x128.Idx → EReal) = V c main_arg1 := by
    funext y
    show V c main_arg1 (((cfg0.win 0).blk t).view.emb y) = V c main_arg1 y
    refine congrArg (V c main_arg1) (funext fun a => Fin.ext ?_)
    match a with
    | ⟨0, _⟩ => show win0_0.index t (0 : Fin 2) * 10000 + 1 * (y 0).val = (y 0).val; omega
    | ⟨1, _⟩ => show win0_0.index t (1 : Fin 2) * 128 + 1 * (y 1).val = (y 1).val; omega
  have h1 : (iblk0 V c 1 t : S128x128.Idx → EReal) = V c main_v11 := by
    funext y
    show V c main_v11 (((cfg0.win 1).blk t).view.emb y) = V c main_v11 y
    refine congrArg (V c main_v11) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have h2 : (iblk0 V c 2 t : S1x128.Idx → EReal) = V c main_v16 := by
    funext y
    show V c main_v16 (((cfg0.win 2).blk t).view.emb y) = V c main_v16 y
    refine congrArg (V c main_v16) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  have hp : ((((cfg0.win 3).blk t).view.emb j) 0 : Fin 10000) = j 0 :=
    Fin.ext (show win0_3.index t (0 : Fin 2) * 10000 + 1 * (j 0).val = (j 0).val by omega)
  have hq : ((((cfg0.win 3).blk t).view.emb j) 1 : Fin 128) = j 1 :=
    Fin.ext (show win0_3.index t (1 : Fin 2) * 128 + 1 * (j 1).val = (j 1).val by omega)
  show dense (iblk0 V c 1 t) (biasRow (iblk0 V c 2 t)) (rowOf (iblk0 V c 0 t) (j 0)) (j 1)
    = dense (V c main_v11) (biasRow (V c main_v16)) (rowOf (V c main_arg1) ((((cfg0.win 3).blk t).view.emb j) 0))
        ((((cfg0.win 3).blk t).view.emb j) 1)
  rw [h0, h1, h2, hp, hq]

/-- An index is in the point's output block iff each coordinate is in the block's range. -/
theorem mem_blk (t : Fin cfg0.N) (i : S10000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v19).slice (win0_3.rect t)).set ↔ _
  rw [View.set_slice_whole, Rect.mem_set_unit]
  exact Iff.rfl

/-- Every index is in the one point's block. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := onto
  have q0 : win0_3.index t (0 : Fin 2) = 0 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The output array after the launch: the first dense map of the arrays the launch finds, at every node. -/
theorem array (c : Dev nD) :
    (dat0 (F := Ideal) V c).arrAt 3 cfg0.N = denseAll (V c main_arg1) (V c main_v11) (biasRow (V c main_v16)) :=
  (dat0 V c).arrAt_eq_of_cover 3 (denseAll (V c main_arg1) (V c main_v11) (biasRow (V c main_v16)))
    (fun t _ => flushed V c t) cover

end Cert.KernelIdeal.BlocksLinear

end
-- ==== Proof.BlocksLayer1.lean ====
/-
  The second launch: one output array ends as one fused layer of the arrays it finds, at every node, and the other
  as a copy of the adjacency matrix.

  The grid has 25 points; at point t the adjacency window holds rows 400t … 400t+399 of the adjacency matrix, and
  every other input window — the first dense map's output, the scale, the shift, the weights, the bias — holds its
  whole array at every point.  What point t writes back to the first output is the fused layer applied to each of
  its 400 adjacency rows: rows 400t … 400t+399 of the layer applied to every node, because a node's output depends
  on its own adjacency row only.  The 25 blocks cover all 10000 rows.
-/
import proofs.«147455_g11012296147170_week1_w3_712_6_alg».proof.Proof.Gen.KernelIdeal.Frame
import proofs.«147455_g11012296147170_week1_w3_712_6_alg».proof.Proof.Bodies

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowDot Cert.Dense Cert.GraphLayer Cert.Encoder

namespace Cert.KernelIdeal.BlocksLayer1

variable (V : (c : Dev nD) → (b : Ref sig .tc) → Buf (Elt Ideal) ((c : Thread nD τ).loc b))

theorem origin2 : (![0, 0] : Fin 2 → Nat) = fun _ => 0 := funext fun a => by fin_cases a <;> rfl

/-- Over the 25 points: the adjacency block and the output block sit at the same row block, column block 0; every
    other window's block is its whole array. -/
theorem maps : ∀ t : Fin cfg1.N, win1_0.index t (0 : Fin 2) = win1_6.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (1 : Fin 2) = 0 :=
  (by decide +kernel : ∀ t : Fin grid1.N, _)

/-- Every one of the 25 row blocks is some point's. -/
theorem onto : ∀ q : Fin 25, ∃ t : Fin cfg1.N, win1_6.index t = ![q.val, 0] :=
  (by decide +kernel : ∀ q : Fin 25, ∃ t : Fin grid1.N, win1_6.index t = ![q.val, 0])

/-- What point t writes back is block t of the fused layer of the arrays the launch finds. -/
theorem flushed (c : Dev nD) (t : Fin cfg1.N) :
    (dat1 (F := Ideal) V c).flushed 6 t
      = ((cfg1.win 6).blk t).view.read (Elt Ideal) (layerAll (V c main_arg0) (V c main_v19) (biasRow (V c main_v4)) (biasRow (V c main_v5)) (V c main_v13) (biasRow (V c main_v17))) := by
  show (cfg1.win 6).cut (grid1.coords t) ((dat1 V c).after 6 t) = _
  rw [after1_6]
  unfold out1_6
  rw [View.canon_unit_zero origin2]
  simp only [View.ld_unit_zero (S := S400x10000) origin2, View.ld_unit_zero (S := S10000x128) origin2,
    View.ld_unit_zero (S := S1x128) origin2, View.ld_unit_zero (S := S128x128) origin2]
  obtain ⟨e0, e1, e2, e3, e4, e5, e6, e7, e8, e9, e10, e11, e12⟩ := maps t
  funext j
  show k1_pay2 (iblk1 V c 0 t) (iblk1 V c 1 t) (iblk1 V c 2 t) (iblk1 V c 3 t) (iblk1 V c 4 t) (iblk1 V c 5 t) j
    = layerAll (V c main_arg0) (V c main_v19) (biasRow (V c main_v4)) (biasRow (V c main_v5)) (V c main_v13) (biasRow (V c main_v17)) (((cfg1.win 6).blk t).view.emb j)
  refine (congrArg (k1_pay2 (iblk1 V c 0 t) (iblk1 V c 1 t) (iblk1 V c 2 t) (iblk1 V c 3 t) (iblk1 V c 4 t) (iblk1 V c 5 t)) (eq_ix2 j)).trans ?_
  refine (Bodies.layer1_at (iblk1 V c 0 t) (iblk1 V c 1 t) (iblk1 V c 2 t) (iblk1 V c 3 t) (iblk1 V c 4 t) (iblk1 V c 5 t) (j 0) (j 1)).trans ?_
  have h1 : (iblk1 V c 1 t : S10000x128.Idx → EReal) = V c main_v19 := by
    funext y
    show V c main_v19 (((cfg1.win 1).blk t).view.emb y) = V c main_v19 y
    refine congrArg (V c main_v19) (funext fun a => Fin.ext ?_)
    match a with
    | ⟨0, _⟩ => show win1_1.index t (0 : Fin 2) * 10000 + 1 * (y 0).val = (y 0).val; omega
    | ⟨1, _⟩ => show win1_1.index t (1 : Fin 2) * 128 + 1 * (y 1).val = (y 1).val; omega
  have h2 : (iblk1 V c 2 t : S1x128.Idx → EReal) = V c main_v4 := by
    funext y
    show V c main_v4 (((cfg1.win 2).blk t).view.emb y) = V c main_v4 y
    refine congrArg (V c main_v4) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have h3 : (iblk1 V c 3 t : S1x128.Idx → EReal) = V c main_v5 := by
    funext y
    show V c main_v5 (((cfg1.win 3).blk t).view.emb y) = V c main_v5 y
    refine congrArg (V c main_v5) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have h4 : (iblk1 V c 4 t : S128x128.Idx → EReal) = V c main_v13 := by
    funext y
    show V c main_v13 (((cfg1.win 4).blk t).view.emb y) = V c main_v13 y
    refine congrArg (V c main_v13) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have h5 : (iblk1 V c 5 t : S1x128.Idx → EReal) = V c main_v17 := by
    funext y
    show V c main_v17 (((cfg1.win 5).blk t).view.emb y) = V c main_v17 y
    refine congrArg (V c main_v17) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  have hA : rowOf (iblk1 V c 0 t) (j 0) = rowOf (V c main_arg0) ((((cfg1.win 6).blk t).view.emb j) 0) := by
    funext k
    show V c main_arg0 (((cfg1.win 0).blk t).view.emb (ix2 (j 0) k))
      = V c main_arg0 (ix2 ((((cfg1.win 6).blk t).view.emb j) 0) k)
    refine congrArg (V c main_arg0) (funext fun a => Fin.ext ?_)
    match a with
    | ⟨0, _⟩ => show win1_0.index t (0 : Fin 2) * 400 + 1 * (j 0).val = win1_6.index t (0 : Fin 2) * 400 + 1 * (j 0).val; omega
    | ⟨1, _⟩ => show win1_0.index t (1 : Fin 2) * 10000 + 1 * k.val = k.val; omega
  have hq : ((((cfg1.win 6).blk t).view.emb j) 1 : Fin 128) = j 1 :=
    Fin.ext (show win1_6.index t (1 : Fin 2) * 128 + 1 * (j 1).val = (j 1).val by omega)
  show layer (iblk1 V c 1 t) (biasRow (iblk1 V c 2 t)) (biasRow (iblk1 V c 3 t)) (iblk1 V c 4 t) (biasRow (iblk1 V c 5 t))
      (rowOf (iblk1 V c 0 t) (j 0)) (j 1)
    = layer (V c main_v19) (biasRow (V c main_v4)) (biasRow (V c main_v5)) (V c main_v13) (biasRow (V c main_v17))
      (rowOf (V c main_arg0) ((((cfg1.win 6).blk t).view.emb j) 0)) ((((cfg1.win 6).blk t).view.emb j) 1)
  rw [hA, h1, h2, h3, h4, h5, hq]

/-- An index is in point t's output block iff each coordinate is in the block's range. -/
theorem mem_blk (t : Fin cfg1.N) (i : S10000x128.Idx) :
    i ∈ ((cfg1.win 6).blk t).view.set ↔ ∀ a : Fin 2, win1_6.index t a * S400x128.size a ≤ (i a).val
      ∧ (i a).val < win1_6.index t a * S400x128.size a + S400x128.size a := by
  show i ∈ ((View.whole main_v20_0).slice (win1_6.rect t)).set ↔ _
  rw [View.set_slice_whole, Rect.mem_set_unit]
  exact Iff.rfl

/-- Row n is in the block of point n / 400. -/
theorem cover (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ := onto ⟨(i 0).val / 400, by omega⟩
  have q0 : win1_6.index t (0 : Fin 2) = (i 0).val / 400 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 400 ≤ (i 0).val ∧ (i 0).val < win1_6.index t (0 : Fin 2) * 400 + 400; omega
  | ⟨1, _⟩ => show win1_6.index t (1 : Fin 2) * 128 ≤ (i 1).val ∧ (i 1).val < win1_6.index t (1 : Fin 2) * 128 + 128; omega

/-- The output array after the launch: the fused layer of the arrays the launch finds, at every node. -/
theorem array (c : Dev nD) :
    (dat1 (F := Ideal) V c).arrAt 6 cfg1.N = layerAll (V c main_arg0) (V c main_v19) (biasRow (V c main_v4)) (biasRow (V c main_v5)) (V c main_v13) (biasRow (V c main_v17)) :=
  (dat1 V c).arrAt_eq_of_cover 6 (layerAll (V c main_arg0) (V c main_v19) (biasRow (V c main_v4)) (biasRow (V c main_v5)) (V c main_v13) (biasRow (V c main_v17))) (fun t _ => flushed V c t) cover

/-! ## The copy of the adjacency matrix

The same launch also writes each point's 400 adjacency rows back unchanged (the change of float format keeps every
value), through a window whose blocks tile the whole 10000×10000 array: it ends holding the adjacency matrix. -/

/-- Over the 25 points: the copy's block sits where the adjacency block does. -/
theorem maps_copy : ∀ t : Fin cfg1.N, win1_0.index t (0 : Fin 2) = win1_7.index t (0 : Fin 2)
    ∧ win1_0.index t (1 : Fin 2) = win1_7.index t (1 : Fin 2) ∧ win1_7.index t (1 : Fin 2) = 0 :=
  (by decide +kernel : ∀ t : Fin grid1.N, _)

/-- Every one of the 25 row blocks is some point's. -/
theorem onto_copy : ∀ q : Fin 25, ∃ t : Fin cfg1.N, win1_7.index t = ![q.val, 0] :=
  (by decide +kernel : ∀ q : Fin 25, ∃ t : Fin grid1.N, win1_7.index t = ![q.val, 0])

/-- What point t writes back to the copy is block t of the adjacency matrix. -/
theorem flushed_copy (c : Dev nD) (t : Fin cfg1.N) :
    (dat1 (F := Ideal) V c).flushed 7 t
      = ((cfg1.win 7).blk t).view.read (Elt Ideal) (fun i => V c main_arg0 i) := by
  show (cfg1.win 7).cut (grid1.coords t) ((dat1 V c).after 7 t) = _
  rw [after1_7]
  unfold out1_7
  rw [View.canon_unit_zero origin2]
  simp only [View.ld_unit_zero (S := S400x10000) origin2]
  obtain ⟨e0, e1, e2⟩ := maps_copy t
  funext j
  show V c main_arg0 (((cfg1.win 0).blk t).view.emb j) = V c main_arg0 (((cfg1.win 7).blk t).view.emb j)
  refine congrArg (V c main_arg0) (funext fun a => Fin.ext ?_)
  match a with
  | ⟨0, _⟩ => show win1_0.index t (0 : Fin 2) * 400 + 1 * (j 0).val = win1_7.index t (0 : Fin 2) * 400 + 1 * (j 0).val; omega
  | ⟨1, _⟩ => show win1_0.index t (1 : Fin 2) * 10000 + 1 * (j 1).val = win1_7.index t (1 : Fin 2) * 10000 + 1 * (j 1).val; omega

/-- An index is in point t's block of the copy iff each coordinate is in the block's range. -/
theorem mem_blk_copy (t : Fin cfg1.N) (i : S10000x10000.Idx) :
    i ∈ ((cfg1.win 7).blk t).view.set ↔ ∀ a : Fin 2, win1_7.index t a * S400x10000.size a ≤ (i a).val
      ∧ (i a).val < win1_7.index t a * S400x10000.size a + S400x10000.size a := by
  show i ∈ ((View.whole main_v20_1).slice (win1_7.rect t)).set ↔ _
  rw [View.set_slice_whole, Rect.mem_set_unit]
  exact Iff.rfl

/-- Row n of the copy is in the block of point n / 400. -/
theorem cover_copy (i : S10000x10000.Idx) :
    ∃ t : Fin cfg1.N, (cfg1.win 7).flush t = true ∧ i ∈ ((cfg1.win 7).blk t).view.set := by
  have hi0 : (i 0).val < 10000 := (i 0).isLt
  have hi1 : (i 1).val < 10000 := (i 1).isLt
  obtain ⟨t, ht⟩ := onto_copy ⟨(i 0).val / 400, by omega⟩
  have q0 : win1_7.index t (0 : Fin 2) = (i 0).val / 400 := congrFun ht 0
  have q1 : win1_7.index t (1 : Fin 2) = 0 := congrFun ht 1
  refine ⟨t, flush1_7 t, ?_⟩
  rw [mem_blk_copy]
  intro a
  match a with
  | ⟨0, _⟩ => show win1_7.index t (0 : Fin 2) * 400 ≤ (i 0).val ∧ (i 0).val < win1_7.index t (0 : Fin 2) * 400 + 400; omega
  | ⟨1, _⟩ => show win1_7.index t (1 : Fin 2) * 10000 ≤ (i 1).val ∧ (i 1).val < win1_7.index t (1 : Fin 2) * 10000 + 10000; omega

/-- The copy after the launch: the adjacency matrix the launch finds. -/
theorem array_copy (c : Dev nD) :
    (dat1 (F := Ideal) V c).arrAt 7 cfg1.N = (fun i => V c main_arg0 i) :=
  (dat1 V c).arrAt_eq_of_cover 7 (fun i => V c main_arg0 i) (fun t _ => flushed_copy V c t) cover_copy

end Cert.KernelIdeal.BlocksLayer1

end
-- ==== Proof.BlocksLayer2.lean ====
/-
  The third launch: the array it leaves is one fused layer of the arrays it finds, at every node.

  The grid has 25 points; at point t the adjacency window holds rows 400t … 400t+399 of the adjacency matrix, and
  every other window — the previous layer's output, the scale, the shift, the weights, the bias — holds its whole
  array at every point.  What point t writes back is the fused layer applied to each of its 400 adjacency rows,
  which is rows 400t … 400t+399 of the layer applied to every node, because a node's output depends on its own
  adjacency row only.  The 25 blocks cover all 10000 rows.
-/
import proofs.«147455_g11012296147170_week1_w3_712_6_alg».proof.Proof.Gen.KernelIdeal.Frame
import proofs.«147455_g11012296147170_week1_w3_712_6_alg».proof.Proof.Bodies

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowDot Cert.Dense Cert.GraphLayer Cert.Encoder

namespace Cert.KernelIdeal.BlocksLayer2

variable (V : (c : Dev nD) → (b : Ref sig .tc) → Buf (Elt Ideal) ((c : Thread nD τ).loc b))

theorem origin2 : (![0, 0] : Fin 2 → Nat) = fun _ => 0 := funext fun a => by fin_cases a <;> rfl

/-- Over the 25 points: the adjacency block and the output block sit at the same row block, column block 0; every
    other window's block is its whole array. -/
theorem maps : ∀ t : Fin cfg2.N, win2_0.index t (0 : Fin 2) = win2_6.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (1 : Fin 2) = 0 :=
  (by decide +kernel : ∀ t : Fin grid2.N, _)

/-- Every one of the 25 row blocks is some point's. -/
theorem onto : ∀ q : Fin 25, ∃ t : Fin cfg2.N, win2_6.index t = ![q.val, 0] :=
  (by decide +kernel : ∀ q : Fin 25, ∃ t : Fin grid2.N, win2_6.index t = ![q.val, 0])

/-- What point t writes back is block t of the fused layer of the arrays the launch finds. -/
theorem flushed (c : Dev nD) (t : Fin cfg2.N) :
    (dat2 (F := Ideal) V c).flushed 6 t
      = ((cfg2.win 6).blk t).view.read (Elt Ideal) (layerAll (V c main_v20_1) (V c main_v20_0) (biasRow (V c main_v8)) (biasRow (V c main_v9)) (V c main_v15) (biasRow (V c main_v18))) := by
  show (cfg2.win 6).cut (grid2.coords t) ((dat2 V c).after 6 t) = _
  rw [after2_6]
  unfold out2_6
  rw [View.canon_unit_zero origin2]
  simp only [View.ld_unit_zero (S := S400x10000) origin2, View.ld_unit_zero (S := S10000x128) origin2,
    View.ld_unit_zero (S := S1x128) origin2, View.ld_unit_zero (S := S128x128) origin2]
  obtain ⟨e0, e1, e2, e3, e4, e5, e6, e7, e8, e9, e10, e11, e12⟩ := maps t
  funext j
  show k2_pay1 (iblk2 V c 0 t) (iblk2 V c 1 t) (iblk2 V c 2 t) (iblk2 V c 3 t) (iblk2 V c 4 t) (iblk2 V c 5 t) j
    = layerAll (V c main_v20_1) (V c main_v20_0) (biasRow (V c main_v8)) (biasRow (V c main_v9)) (V c main_v15) (biasRow (V c main_v18)) (((cfg2.win 6).blk t).view.emb j)
  refine (congrArg (k2_pay1 (iblk2 V c 0 t) (iblk2 V c 1 t) (iblk2 V c 2 t) (iblk2 V c 3 t) (iblk2 V c 4 t) (iblk2 V c 5 t)) (eq_ix2 j)).trans ?_
  refine (Bodies.layer2_at (iblk2 V c 0 t) (iblk2 V c 1 t) (iblk2 V c 2 t) (iblk2 V c 3 t) (iblk2 V c 4 t) (iblk2 V c 5 t) (j 0) (j 1)).trans ?_
  have h1 : (iblk2 V c 1 t : S10000x128.Idx → EReal) = V c main_v20_0 := by
    funext y
    show V c main_v20_0 (((cfg2.win 1).blk t).view.emb y) = V c main_v20_0 y
    refine congrArg (V c main_v20_0) (funext fun a => Fin.ext ?_)
    match a with
    | ⟨0, _⟩ => show win2_1.index t (0 : Fin 2) * 10000 + 1 * (y 0).val = (y 0).val; omega
    | ⟨1, _⟩ => show win2_1.index t (1 : Fin 2) * 128 + 1 * (y 1).val = (y 1).val; omega
  have h2 : (iblk2 V c 2 t : S1x128.Idx → EReal) = V c main_v8 := by
    funext y
    show V c main_v8 (((cfg2.win 2).blk t).view.emb y) = V c main_v8 y
    refine congrArg (V c main_v8) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  have h3 : (iblk2 V c 3 t : S1x128.Idx → EReal) = V c main_v9 := by
    funext y
    show V c main_v9 (((cfg2.win 3).blk t).view.emb y) = V c main_v9 y
    refine congrArg (V c main_v9) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have h4 : (iblk2 V c 4 t : S128x128.Idx → EReal) = V c main_v15 := by
    funext y
    show V c main_v15 (((cfg2.win 4).blk t).view.emb y) = V c main_v15 y
    refine congrArg (V c main_v15) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have h5 : (iblk2 V c 5 t : S1x128.Idx → EReal) = V c main_v18 := by
    funext y
    show V c main_v18 (((cfg2.win 5).blk t).view.emb y) = V c main_v18 y
    refine congrArg (V c main_v18) (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  have hA : rowOf (iblk2 V c 0 t) (j 0) = rowOf (V c main_v20_1) ((((cfg2.win 6).blk t).view.emb j) 0) := by
    funext k
    show V c main_v20_1 (((cfg2.win 0).blk t).view.emb (ix2 (j 0) k))
      = V c main_v20_1 (ix2 ((((cfg2.win 6).blk t).view.emb j) 0) k)
    refine congrArg (V c main_v20_1) (funext fun a => Fin.ext ?_)
    match a with
    | ⟨0, _⟩ => show win2_0.index t (0 : Fin 2) * 400 + 1 * (j 0).val = win2_6.index t (0 : Fin 2) * 400 + 1 * (j 0).val; omega
    | ⟨1, _⟩ => show win2_0.index t (1 : Fin 2) * 10000 + 1 * k.val = k.val; omega
  have hq : ((((cfg2.win 6).blk t).view.emb j) 1 : Fin 128) = j 1 :=
    Fin.ext (show win2_6.index t (1 : Fin 2) * 128 + 1 * (j 1).val = (j 1).val by omega)
  show layer (iblk2 V c 1 t) (biasRow (iblk2 V c 2 t)) (biasRow (iblk2 V c 3 t)) (iblk2 V c 4 t) (biasRow (iblk2 V c 5 t))
      (rowOf (iblk2 V c 0 t) (j 0)) (j 1)
    = layer (V c main_v20_0) (biasRow (V c main_v8)) (biasRow (V c main_v9)) (V c main_v15) (biasRow (V c main_v18))
      (rowOf (V c main_v20_1) ((((cfg2.win 6).blk t).view.emb j) 0)) ((((cfg2.win 6).blk t).view.emb j) 1)
  rw [hA, h1, h2, h3, h4, h5, hq]

/-- An index is in point t's output block iff each coordinate is in the block's range. -/
theorem mem_blk (t : Fin cfg2.N) (i : S10000x128.Idx) :
    i ∈ ((cfg2.win 6).blk t).view.set ↔ ∀ a : Fin 2, win2_6.index t a * S400x128.size a ≤ (i a).val
      ∧ (i a).val < win2_6.index t a * S400x128.size a + S400x128.size a := by
  show i ∈ ((View.whole main_v21).slice (win2_6.rect t)).set ↔ _
  rw [View.set_slice_whole, Rect.mem_set_unit]
  exact Iff.rfl

/-- Row n is in the block of point n / 400. -/
theorem cover (i : S10000x128.Idx) :
    ∃ t : Fin cfg2.N, (cfg2.win 6).flush t = true ∧ i ∈ ((cfg2.win 6).blk t).view.set := by
  have hi0 : (i 0).val < 10000 := (i 0).isLt
  have hi1 : (i 1).val < 128 := (i 1).isLt
  obtain ⟨t, ht⟩ := onto ⟨(i 0).val / 400, by omega⟩
  have q0 : win2_6.index t (0 : Fin 2) = (i 0).val / 400 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 400 ≤ (i 0).val ∧ (i 0).val < win2_6.index t (0 : Fin 2) * 400 + 400; omega
  | ⟨1, _⟩ => show win2_6.index t (1 : Fin 2) * 128 ≤ (i 1).val ∧ (i 1).val < win2_6.index t (1 : Fin 2) * 128 + 128; omega

/-- The output array after the launch: the fused layer of the arrays the launch finds, at every node. -/
theorem array (c : Dev nD) :
    (dat2 (F := Ideal) V c).arrAt 6 cfg2.N = layerAll (V c main_v20_1) (V c main_v20_0) (biasRow (V c main_v8)) (biasRow (V c main_v9)) (V c main_v15) (biasRow (V c main_v18)) :=
  (dat2 V c).arrAt_eq_of_cover 6 (layerAll (V c main_v20_1) (V c main_v20_0) (biasRow (V c main_v8)) (biasRow (V c main_v9)) (V c main_v15) (biasRow (V c main_v18))) (fun t _ => flushed V c t) cover

end Cert.KernelIdeal.BlocksLayer2

end
-- ==== Proof.BlocksFinal.lean ====
/-
  The last launch: the array it leaves is  A · B  of the arrays it finds.

  The grid has 25 points; at point t the adjacency window holds rows 400t … 400t+399 of A (all 10000 columns), the
  right operand's window holds all of B at every point, and the output window holds rows 400t … 400t+399 of the
  result.  What point t writes back is the aggregation of its 400 adjacency rows against B, which is rows
  400t … 400t+399 of  A · B  because entry (n, q) of  A · B  depends on row n of A only.  The 25 blocks cover all
  10000 rows (row n is in block n / 400), so the array ends holding  A · B  everywhere.
-/
import proofs.«147455_g11012296147170_week1_w3_712_6_alg».proof.Proof.Gen.KernelIdeal.Frame
import proofs.«147455_g11012296147170_week1_w3_712_6_alg».proof.Proof.Bodies

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowDot Cert.Dense Cert.GraphLayer Cert.Encoder

namespace Cert.KernelIdeal.BlocksFinal

variable (V : (c : Dev nD) → (b : Ref sig .tc) → Buf (Elt Ideal) ((c : Thread nD τ).loc b))

theorem origin2 : (![0, 0] : Fin 2 → Nat) = fun _ => 0 := funext fun a => by fin_cases a <;> rfl

/-- Over the 25 points: the adjacency block and the output block sit at the same row block, column block 0; the
    right operand's block is the whole array. -/
theorem maps : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every one of the 25 row blocks is some point's. -/
theorem onto : ∀ q : Fin 25, ∃ t : Fin cfg3.N, win3_2.index t = ![q.val, 0] :=
  (by decide +kernel : ∀ q : Fin 25, ∃ t : Fin grid3.N, win3_2.index t = ![q.val, 0])

/-- What point t writes back is block t of  A · B. -/
theorem flushed (c : Dev nD) (t : Fin cfg3.N) :
    (dat3 (F := Ideal) V c).flushed 2 t
      = ((cfg3.win 2).blk t).view.read (Elt Ideal) (aggAll (V c main_v20_1) (V c main_v21)) := by
  show (cfg3.win 2).cut (grid3.coords t) ((dat3 V c).after 2 t) = _
  rw [after3_2]
  unfold out3_2
  rw [View.canon_unit_zero origin2]
  simp only [View.ld_unit_zero (S := S400x10000) origin2, View.ld_unit_zero (S := S10000x128) origin2]
  obtain ⟨e0, e1, e2, e3, e4⟩ := maps t
  funext j
  show k3_pay1 (iblk3 V c 0 t) (iblk3 V c 1 t) j
    = aggAll (V c main_v20_1) (V c main_v21) (((cfg3.win 2).blk t).view.emb j)
  refine (congrArg (k3_pay1 (iblk3 V c 0 t) (iblk3 V c 1 t)) (eq_ix2 j)).trans ?_
  refine (Bodies.final_at (iblk3 V c 0 t) (iblk3 V c 1 t) (j 0) (j 1)).trans ?_
  have hB : (iblk3 V c 1 t : S10000x128.Idx → EReal) = V c main_v21 := by
    funext y
    show V c main_v21 (((cfg3.win 1).blk t).view.emb y) = V c main_v21 y
    refine congrArg (V c main_v21) (funext fun a => Fin.ext ?_)
    match a with
    | ⟨0, _⟩ => show win3_1.index t (0 : Fin 2) * 10000 + 1 * (y 0).val = (y 0).val; omega
    | ⟨1, _⟩ => show win3_1.index t (1 : Fin 2) * 128 + 1 * (y 1).val = (y 1).val; omega
  have hA : rowOf (iblk3 V c 0 t) (j 0) = rowOf (V c main_v20_1) ((((cfg3.win 2).blk t).view.emb j) 0) := by
    funext k
    show V c main_v20_1 (((cfg3.win 0).blk t).view.emb (ix2 (j 0) k))
      = V c main_v20_1 (ix2 ((((cfg3.win 2).blk t).view.emb j) 0) k)
    refine congrArg (V c main_v20_1) (funext fun a => Fin.ext ?_)
    match a with
    | ⟨0, _⟩ => show win3_0.index t (0 : Fin 2) * 400 + 1 * (j 0).val = win3_2.index t (0 : Fin 2) * 400 + 1 * (j 0).val; omega
    | ⟨1, _⟩ => show win3_0.index t (1 : Fin 2) * 10000 + 1 * k.val = k.val; omega
  have hq : ((((cfg3.win 2).blk t).view.emb j) 1 : Fin 128) = j 1 :=
    Fin.ext (show win3_2.index t (1 : Fin 2) * 128 + 1 * (j 1).val = (j 1).val by omega)
  show rowDot (rowOf (iblk3 V c 0 t) (j 0)) (iblk3 V c 1 t) (j 1)
    = rowDot (rowOf (V c main_v20_1) ((((cfg3.win 2).blk t).view.emb j) 0)) (V c main_v21) ((((cfg3.win 2).blk t).view.emb j) 1)
  rw [hA, hB, hq]

/-- An index is in point t's output block iff each coordinate is in the block's range. -/
theorem mem_blk (t : Fin cfg3.N) (i : S10000x128.Idx) :
    i ∈ ((cfg3.win 2).blk t).view.set ↔ ∀ a : Fin 2, win3_2.index t a * S400x128.size a ≤ (i a).val
      ∧ (i a).val < win3_2.index t a * S400x128.size a + S400x128.size a := by
  show i ∈ ((View.whole main_v22).slice (win3_2.rect t)).set ↔ _
  rw [View.set_slice_whole, Rect.mem_set_unit]
  exact Iff.rfl

/-- Row n is in the block of point n / 400. -/
theorem cover (i : S10000x128.Idx) :
    ∃ t : Fin cfg3.N, (cfg3.win 2).flush t = true ∧ i ∈ ((cfg3.win 2).blk t).view.set := by
  have hi0 : (i 0).val < 10000 := (i 0).isLt
  have hi1 : (i 1).val < 128 := (i 1).isLt
  obtain ⟨t, ht⟩ := onto ⟨(i 0).val / 400, by omega⟩
  have q0 : win3_2.index t (0 : Fin 2) = (i 0).val / 400 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 128 ≤ (i 1).val ∧ (i 1).val < win3_2.index t (1 : Fin 2) * 128 + 128; omega

/-- The result array after the launch:  A · B  of the arrays the launch finds. -/
theorem array (c : Dev nD) :
    (dat3 (F := Ideal) V c).arrAt 2 cfg3.N = aggAll (V c main_v20_1) (V c main_v21) :=
  (dat3 V c).arrAt_eq_of_cover 2 (aggAll (V c main_v20_1) (V c main_v21)) (fun t _ => flushed V c t) cover

end Cert.KernelIdeal.BlocksFinal

end
-- ==== Proof.Contents.lean ====
/-
  What the result buffer holds at the return: the encoder of the arguments as launched.

  The host stretch prepares the operands — each weight matrix transposed, each bias and shift recast as a row, each
  scale γ multiplied by the normalising constant 1 / √1.00001 and recast as a row — and leaves the arguments as
  launched.  The first launch then leaves the first dense map of x; the second leaves the first fused layer (of
  the adjacency matrix and that dense map) and a copy of the adjacency matrix; the third leaves the second fused
  layer (of the copy and the first layer's output); the last aggregates the copy against the second layer's
  output.  A buffer that a launch does not write keeps its contents across it, so each operand is read back to
  the host stretch and each intermediate array to the launch that wrote it.
-/
import proofs.«147455_g11012296147170_week1_w3_712_6_alg».proof.Proof.KernelRun
import proofs.«147455_g11012296147170_week1_w3_712_6_alg».proof.Proof.BlocksLinear
import proofs.«147455_g11012296147170_week1_w3_712_6_alg».proof.Proof.BlocksLayer1
import proofs.«147455_g11012296147170_week1_w3_712_6_alg».proof.Proof.BlocksLayer2
import proofs.«147455_g11012296147170_week1_w3_712_6_alg».proof.Proof.BlocksFinal

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowDot Cert.Dense Cert.GraphLayer Cert.Encoder

namespace Cert.KernelIdeal.Contents

variable (m : (ℓ : Loc nD τ sig) → Buf (Elt Ideal) ℓ) (ρ : Dev nD → PrngReg)

/-- A length-128 vector γ multiplied entry by entry by the constant 1 / √1.00001 spread over its entries, recast as a
    row, is the scale  γ(q) · c. -/
theorem scale_row (g : FVec Ideal S128 .f32) :
    biasRow (shapeCast ⟨2, ![1, 128]⟩ (mulf g (broadcastInDim S128 ![] bcast_S_S128
      (Host.divf (constant (F := Ideal) S_ .f32 0x3F800000#32) (Host.sqrt (constant (F := Ideal) S_ .f32 0x3F800054#32)))))
      shapeCasts_S128_S1x128) = scale g := by
  rw [biasRow_shapeCast]
  funext q
  show g (ix1 q) * broadcastInDim S128 ![] bcast_S_S128
      (Host.divf (constant (F := Ideal) S_ .f32 0x3F800000#32) (Host.sqrt (constant (F := Ideal) S_ .f32 0x3F800054#32))) (ix1 q)
    = g (ix1 q) * invStd
  rw [broadcastInDim_apply _ bcast_S_S128 _ (ix1 q) ix0 (fun a => a.elim0)]
  rfl

/-! ## After the host stretch -/

/-- The host stretch leaves this argument as launched. -/
theorem host_adj (c : Dev nD) : (W1 m ρ c (Proc.devRef .tc main_arg0) : S10000x10000.Idx → EReal) = m ((c : Thread nD τ).loc main_arg0) := by
  show StableHlo.after hostOps0 (W0 m ρ c) (Proc.devRef .tc main_arg0) = _
  after_results

/-- The host stretch leaves this argument as launched. -/
theorem host_x (c : Dev nD) : (W1 m ρ c (Proc.devRef .tc main_arg1) : S10000x128.Idx → EReal) = m ((c : Thread nD τ).loc main_arg1) := by
  show StableHlo.after hostOps0 (W0 m ρ c) (Proc.devRef .tc main_arg1) = _
  after_results

/-- After the host stretch the weight operand is the transposed weight matrix (the change of float format keeps every value). -/
theorem host_w1 (c : Dev nD) : (W1 m ρ c (Proc.devRef .tc main_v11) : S128x128.Idx → EReal) = wT (m ((c : Thread nD τ).loc main_arg2)) := by
  show StableHlo.after hostOps0 (W0 m ρ c) (Proc.devRef .tc main_v11) = _
  after_results
  funext j
  show transpose S128x128 [1, 0] (W0 m ρ c (Proc.devRef .tc main_arg2)) transposes_S128x128_S128x128_1_0 j = m ((c : Thread nD τ).loc main_arg2) (ix2 (j 1) (j 0))
  refine (congrArg (transpose S128x128 [1, 0] (W0 m ρ c (Proc.devRef .tc main_arg2)) transposes_S128x128_S128x128_1_0) (eq_ix2 j)).trans ?_
  exact transpose_ix2_apply _ _ (j 0) (j 1)

/-- After the host stretch the weight operand is the transposed weight matrix (the change of float format keeps every value). -/
theorem host_w2 (c : Dev nD) : (W1 m ρ c (Proc.devRef .tc main_v13) : S128x128.Idx → EReal) = wT (m ((c : Thread nD τ).loc main_arg6)) := by
  show StableHlo.after hostOps0 (W0 m ρ c) (Proc.devRef .tc main_v13) = _
  after_results
  funext j
  show transpose S128x128 [1, 0] (W0 m ρ c (Proc.devRef .tc main_arg6)) transposes_S128x128_S128x128_1_0 j = m ((c : Thread nD τ).loc main_arg6) (ix2 (j 1) (j 0))
  refine (congrArg (transpose S128x128 [1, 0] (W0 m ρ c (Proc.devRef .tc main_arg6)) transposes_S128x128_S128x128_1_0) (eq_ix2 j)).trans ?_
  exact transpose_ix2_apply _ _ (j 0) (j 1)

/-- After the host stretch the weight operand is the transposed weight matrix (the change of float format keeps every value). -/
theorem host_w3 (c : Dev nD) : (W1 m ρ c (Proc.devRef .tc main_v15) : S128x128.Idx → EReal) = wT (m ((c : Thread nD τ).loc main_arg10)) := by
  show StableHlo.after hostOps0 (W0 m ρ c) (Proc.devRef .tc main_v15) = _
  after_results
  funext j
  show transpose S128x128 [1, 0] (W0 m ρ c (Proc.devRef .tc main_arg10)) transposes_S128x128_S128x128_1_0 j = m ((c : Thread nD τ).loc main_arg10) (ix2 (j 1) (j 0))
  refine (congrArg (transpose S128x128 [1, 0] (W0 m ρ c (Proc.devRef .tc main_arg10)) transposes_S128x128_S128x128_1_0) (eq_ix2 j)).trans ?_
  exact transpose_ix2_apply _ _ (j 0) (j 1)

/-- After the host stretch the 1×128 operand is the length-128 argument recast as a row. -/
theorem host_b1 (c : Dev nD) : biasRow (W1 m ρ c (Proc.devRef .tc main_v16) : S1x128.Idx → EReal) = biasVec (m ((c : Thread nD τ).loc main_arg3)) := by
  show biasRow (StableHlo.after hostOps0 (W0 m ρ c) (Proc.devRef .tc main_v16)) = _
  after_results
  show biasRow (shapeCast ⟨2, ![1, 128]⟩ (W0 m ρ c (Proc.devRef .tc main_arg3)) shapeCasts_S128_S1x128) = _
  exact biasRow_shapeCast _ _

/-- After the host stretch the 1×128 operand is the length-128 argument recast as a row. -/
theorem host_b2 (c : Dev nD) : biasRow (W1 m ρ c (Proc.devRef .tc main_v17) : S1x128.Idx → EReal) = biasVec (m ((c : Thread nD τ).loc main_arg7)) := by
  show biasRow (StableHlo.after hostOps0 (W0 m ρ c) (Proc.devRef .tc main_v17)) = _
  after_results
  show biasRow (shapeCast ⟨2, ![1, 128]⟩ (W0 m ρ c (Proc.devRef .tc main_arg7)) shapeCasts_S128_S1x128) = _
  exact biasRow_shapeCast _ _

/-- After the host stretch the 1×128 operand is the length-128 argument recast as a row. -/
theorem host_b3 (c : Dev nD) : biasRow (W1 m ρ c (Proc.devRef .tc main_v18) : S1x128.Idx → EReal) = biasVec (m ((c : Thread nD τ).loc main_arg11)) := by
  show biasRow (StableHlo.after hostOps0 (W0 m ρ c) (Proc.devRef .tc main_v18)) = _
  after_results
  show biasRow (shapeCast ⟨2, ![1, 128]⟩ (W0 m ρ c (Proc.devRef .tc main_arg11)) shapeCasts_S128_S1x128) = _
  exact biasRow_shapeCast _ _

/-- After the host stretch the 1×128 operand is the length-128 argument recast as a row. -/
theorem host_t1 (c : Dev nD) : biasRow (W1 m ρ c (Proc.devRef .tc main_v5) : S1x128.Idx → EReal) = biasVec (m ((c : Thread nD τ).loc main_arg5)) := by
  show biasRow (StableHlo.after hostOps0 (W0 m ρ c) (Proc.devRef .tc main_v5)) = _
  after_results
  show biasRow (shapeCast ⟨2, ![1, 128]⟩ (W0 m ρ c (Proc.devRef .tc main_arg5)) shapeCasts_S128_S1x128) = _
  exact biasRow_shapeCast _ _

/-- After the host stretch the 1×128 operand is the length-128 argument recast as a row. -/
theorem host_t2 (c : Dev nD) : biasRow (W1 m ρ c (Proc.devRef .tc main_v9) : S1x128.Idx → EReal) = biasVec (m ((c : Thread nD τ).loc main_arg9)) := by
  show biasRow (StableHlo.after hostOps0 (W0 m ρ c) (Proc.devRef .tc main_v9)) = _
  after_results
  show biasRow (shapeCast ⟨2, ![1, 128]⟩ (W0 m ρ c (Proc.devRef .tc main_arg9)) shapeCasts_S128_S1x128) = _
  exact biasRow_shapeCast _ _

/-- After the host stretch the scale operand is γ times the normalising constant, recast as a row. -/
theorem host_s1 (c : Dev nD) : biasRow (W1 m ρ c (Proc.devRef .tc main_v4) : S1x128.Idx → EReal) = scale (m ((c : Thread nD τ).loc main_arg4)) := by
  show biasRow (StableHlo.after hostOps0 (W0 m ρ c) (Proc.devRef .tc main_v4)) = _
  after_results
  show biasRow (shapeCast ⟨2, ![1, 128]⟩ (mulf (W0 m ρ c (Proc.devRef .tc main_arg4)) (broadcastInDim S128 ![] bcast_S_S128
    (Host.divf (constant (F := Ideal) S_ .f32 0x3F800000#32) (Host.sqrt (constant (F := Ideal) S_ .f32 0x3F800054#32)))))
    shapeCasts_S128_S1x128) = _
  exact scale_row _

/-- After the host stretch the scale operand is γ times the normalising constant, recast as a row. -/
theorem host_s2 (c : Dev nD) : biasRow (W1 m ρ c (Proc.devRef .tc main_v8) : S1x128.Idx → EReal) = scale (m ((c : Thread nD τ).loc main_arg8)) := by
  show biasRow (StableHlo.after hostOps0 (W0 m ρ c) (Proc.devRef .tc main_v8)) = _
  after_results
  show biasRow (shapeCast ⟨2, ![1, 128]⟩ (mulf (W0 m ρ c (Proc.devRef .tc main_arg8)) (broadcastInDim S128 ![] bcast_S_S128
    (Host.divf (constant (F := Ideal) S_ .f32 0x3F800000#32) (Host.sqrt (constant (F := Ideal) S_ .f32 0x3F800054#32)))))
    shapeCasts_S128_S1x128) = _
  exact scale_row _

/-! ## After each launch -/

/-- After the first launch its output holds the first dense map of x. -/
theorem dense1 (c : Dev nD) : (W2 m ρ c (Proc.devRef .tc main_v19) : S10000x128.Idx → EReal) = denseAll (m ((c : Thread nD τ).loc main_arg1)) (wT (m ((c : Thread nD τ).loc main_arg2))) (biasVec (m ((c : Thread nD τ).loc main_arg3))) := by
  refine (W2_arr m ρ c 3).trans ((BlocksLinear.array (V1 m ρ) c).trans ?_)
  show denseAll (W1 m ρ c (Proc.devRef .tc main_arg1)) (W1 m ρ c (Proc.devRef .tc main_v11)) (biasRow (W1 m ρ c (Proc.devRef .tc main_v16))) = _
  rw [host_x, host_w1, host_b1]

/-- After the second launch its first output holds the first fused layer. -/
theorem layer1 (c : Dev nD) : (W3 m ρ c (Proc.devRef .tc main_v20_0) : S10000x128.Idx → EReal) = layerAll (m ((c : Thread nD τ).loc main_arg0)) (denseAll (m ((c : Thread nD τ).loc main_arg1)) (wT (m ((c : Thread nD τ).loc main_arg2))) (biasVec (m ((c : Thread nD τ).loc main_arg3)))) (scale (m ((c : Thread nD τ).loc main_arg4))) (biasVec (m ((c : Thread nD τ).loc main_arg5))) (wT (m ((c : Thread nD τ).loc main_arg6))) (biasVec (m ((c : Thread nD τ).loc main_arg7))) := by
  refine (W3_arr m ρ c 6).trans ((BlocksLayer1.array (V2 m ρ) c).trans ?_)
  show layerAll (W2 m ρ c (Proc.devRef .tc main_arg0)) (W2 m ρ c (Proc.devRef .tc main_v19)) (biasRow (W2 m ρ c (Proc.devRef .tc main_v4)))
    (biasRow (W2 m ρ c (Proc.devRef .tc main_v5))) (W2 m ρ c (Proc.devRef .tc main_v13)) (biasRow (W2 m ρ c (Proc.devRef .tc main_v17))) = _
  rw [W2_of_ne m ρ c main_arg0 (by decide), W2_of_ne m ρ c main_v4 (by decide), W2_of_ne m ρ c main_v5 (by decide),
    W2_of_ne m ρ c main_v13 (by decide), W2_of_ne m ρ c main_v17 (by decide),
    dense1, host_adj, host_s1, host_t1, host_w2, host_b2]

/-- After the second launch its second output holds the adjacency matrix. -/
theorem adj3 (c : Dev nD) : (W3 m ρ c (Proc.devRef .tc main_v20_1) : S10000x10000.Idx → EReal) = m ((c : Thread nD τ).loc main_arg0) := by
  refine (W3_arr m ρ c 7).trans ((BlocksLayer1.array_copy (V2 m ρ) c).trans ?_)
  show (fun i => W2 m ρ c (Proc.devRef .tc main_arg0) i) = _
  rw [W2_of_ne m ρ c main_arg0 (by decide), host_adj]

/-- The third launch only reads the copy of the adjacency matrix. -/
theorem adj4 (c : Dev nD) : (W4 m ρ c (Proc.devRef .tc main_v20_1) : S10000x10000.Idx → EReal) = m ((c : Thread nD τ).loc main_arg0) :=
  (W4_arr m ρ c 0).trans (((dat2 (V3 m ρ) c).arrAt_in 0 rfl _).trans ((A_eq2 (V3 m ρ) c 0).trans (adj3 m ρ c)))

/-- After the third launch its output holds the second fused layer. -/
theorem layer2 (c : Dev nD) : (W4 m ρ c (Proc.devRef .tc main_v21) : S10000x128.Idx → EReal) = layerAll (m ((c : Thread nD τ).loc main_arg0)) (layerAll (m ((c : Thread nD τ).loc main_arg0)) (denseAll (m ((c : Thread nD τ).loc main_arg1)) (wT (m ((c : Thread nD τ).loc main_arg2))) (biasVec (m ((c : Thread nD τ).loc main_arg3)))) (scale (m ((c : Thread nD τ).loc main_arg4))) (biasVec (m ((c : Thread nD τ).loc main_arg5))) (wT (m ((c : Thread nD τ).loc main_arg6))) (biasVec (m ((c : Thread nD τ).loc main_arg7)))) (scale (m ((c : Thread nD τ).loc main_arg8))) (biasVec (m ((c : Thread nD τ).loc main_arg9))) (wT (m ((c : Thread nD τ).loc main_arg10))) (biasVec (m ((c : Thread nD τ).loc main_arg11))) := by
  refine (W4_arr m ρ c 6).trans ((BlocksLayer2.array (V3 m ρ) c).trans ?_)
  show layerAll (W3 m ρ c (Proc.devRef .tc main_v20_1)) (W3 m ρ c (Proc.devRef .tc main_v20_0)) (biasRow (W3 m ρ c (Proc.devRef .tc main_v8)))
    (biasRow (W3 m ρ c (Proc.devRef .tc main_v9))) (W3 m ρ c (Proc.devRef .tc main_v15)) (biasRow (W3 m ρ c (Proc.devRef .tc main_v18))) = _
  rw [W3_of_ne m ρ c main_v8 (by decide), W3_of_ne m ρ c main_v9 (by decide), W3_of_ne m ρ c main_v15 (by decide),
    W3_of_ne m ρ c main_v18 (by decide),
    W2_of_ne m ρ c main_v8 (by decide), W2_of_ne m ρ c main_v9 (by decide), W2_of_ne m ρ c main_v15 (by decide),
    W2_of_ne m ρ c main_v18 (by decide),
    adj3, layer1, host_s2, host_t2, host_w3, host_b3]

/-- At the return the result buffer holds the encoder of the arguments as launched. -/
theorem result (c : Dev nD) : (W5 m ρ c (Proc.devRef .tc main_v22) : S10000x128.Idx → EReal)
    = encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W5_arr m ρ c 2).trans ((BlocksFinal.array (V4 m ρ) c).trans ?_)
  show aggAll (W4 m ρ c (Proc.devRef .tc main_v20_1)) (W4 m ρ c (Proc.devRef .tc main_v21)) = _
  rw [adj4, layer2]
  rfl

end Cert.KernelIdeal.Contents

end
-- ==== Proof.RefSide.lean ====
/-
  The reference program's result is the encoder.

  The reference computes, on whole arrays, three rounds of: a dense map (a product with the transposed weights
  plus the bias spread over the rows), an aggregation (a product with the adjacency matrix), and — after the first
  two rounds — a normalisation: divide by √1.00001, multiply by γ, add β, rectify.  Read entry by entry each stage
  is the corresponding stage of the encoder; the only place the two differ in form is the normalisation, where
  dividing by the nonzero real √1.00001 and then multiplying by γ is multiplying by γ · (1 / √1.00001).
-/
import proofs.«147455_g11012296147170_week1_w3_712_6_alg».proof.Proof.Gen.ReferenceIdeal.Read
import proofs.«147455_g11012296147170_week1_w3_712_6_alg».proof.Proof.Encoder

noncomputable section

open scoped BigOperators

namespace Cert.ReferenceIdeal.RefValue

open Idealize.ShloMosaic Idealize.ShloMosaic.ValueIdx Cert.ReferenceIdeal Cert.ReferenceIdeal.Read
open Cert.RowDot Cert.Dense Cert.GraphLayer Cert.Encoder

/-- Scale, shift and rectify every entry of an array of aggregated features. -/
def actAll (H : (⟨2, ![10000, 128]⟩ : Shape).Idx → EReal) (s t : Fin 128 → EReal) :
    (⟨2, ![10000, 128]⟩ : Shape).Idx → EReal :=
  fun j => max (H j * s (j 1) + t (j 1)) (Ideal.ofBits .f32 0x00000000#32)

/-- A fused layer on every node is: aggregate, then scale-shift-rectify every entry, then the dense map. -/
theorem layerAll_stages (A : (⟨2, ![10000, 10000]⟩ : Shape).Idx → EReal) (B : (⟨2, ![10000, 128]⟩ : Shape).Idx → EReal)
    (s t : Fin 128 → EReal) (W : (⟨2, ![128, 128]⟩ : Shape).Idx → EReal) (b : Fin 128 → EReal) :
    layerAll A B s t W b = denseAll (actAll (aggAll A B) s t) W b := rfl

variable (x0 : (⟨S10000x10000, .f32⟩ : BufTy).Contents (Elt Ideal)) (x1 : (⟨S10000x128, .f32⟩ : BufTy).Contents (Elt Ideal)) (x2 : (⟨S128x128, .f32⟩ : BufTy).Contents (Elt Ideal))
  (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal))
  (x10 : (⟨S128x128, .f32⟩ : BufTy).Contents (Elt Ideal)) (x11 : (⟨S128, .f32⟩ : BufTy).Contents (Elt Ideal))

/-- Dense map 1: the product with the transposed weights plus the bias spread over the rows. -/
theorem dense1 : val_main_v4 (F := Ideal) x1 x2 x3 = denseAll (x1) (wT x2) (biasVec x3) := by
  funext i
  have hl : ∀ k : Fin 128, lidx_main_v1 i k = ix2 (i 0) k := fun k => funext fun a => Fin.ext (by match a with | ⟨0, _⟩ => rfl | ⟨1, _⟩ => rfl)
  have hr : ∀ k : Fin 128, idx_main_v0 (ridx_main_v1 i k) = ix2 (i 1) k := fun k => funext fun a => Fin.ext (by match a with | ⟨0, _⟩ => rfl | ⟨1, _⟩ => rfl)
  have hb : idx_main_v2 (idx_main_v3 i) = ix1 (i 1) := funext fun a => Fin.ext (by match a with | ⟨0, _⟩ => rfl)
  rw [val_main_v4_apply, val_main_v1_apply, val_main_v3_apply, val_main_v2_apply]
  simp only [val_main_v0_apply, hl, hr, hb]
  rfl

/-- Aggregation 1: the product of the adjacency matrix with the dense map's output. -/
theorem agg1 : val_main_v5 (F := Ideal) x0 x1 x2 x3 = aggAll x0 (val_main_v4 (F := Ideal) x1 x2 x3) := by
  funext i
  have hl : ∀ k : Fin 10000, lidx_main_v5 i k = ix2 (i 0) k := fun k => funext fun a => Fin.ext (by match a with | ⟨0, _⟩ => rfl | ⟨1, _⟩ => rfl)
  have hr : ∀ k : Fin 10000, ridx_main_v5 i k = ix2 k (i 1) := fun k => funext fun a => Fin.ext (by match a with | ⟨0, _⟩ => rfl | ⟨1, _⟩ => rfl)
  rw [val_main_v5_apply]
  simp only [hl, hr]
  rfl

/-- Normalisation 1: divide by √1.00001, scale by γ, shift by β, rectify — the division folded into the scale. -/
theorem act1 : val_main_v16 (F := Ideal) x0 x1 x2 x3 x4 x5 = actAll (val_main_v5 (F := Ideal) x0 x1 x2 x3) (scale x4) (biasVec x5) := by
  funext j
  have hg : idx_main_v10 (idx_main_v11 j) = ix1 (j 1) := funext fun a => Fin.ext (by match a with | ⟨0, _⟩ => rfl)
  have hbe : idx_main_v13 (idx_main_v14 j) = ix1 (j 1) := funext fun a => Fin.ext (by match a with | ⟨0, _⟩ => rfl)
  rw [val_main_v16_apply, val_main_v15_apply, val_main_v12_apply, val_main_v9_apply, val_main_v8_apply,
    val_main_v7_apply, val_main_v6_apply, val_main_cst_apply, val_main_v11_apply, val_main_v10_apply,
    val_main_v14_apply, val_main_v13_apply, val_main_call0_v0_apply, val_main_call0_cst_apply, hg, hbe]
  show max (Ideal.div (val_main_v5 (F := Ideal) x0 x1 x2 x3 j) (Ideal.sqrt (Ideal.ofBits .f32 0x3F800054#32)) * x4 (ix1 (j 1))
      + x5 (ix1 (j 1))) (Ideal.ofBits .f32 0x00000000#32) = _
  rw [div_std_mul]
  rfl

/-- Dense map 2: the product with the transposed weights plus the bias spread over the rows. -/
theorem dense2 : val_main_v21 (F := Ideal) x0 x1 x2 x3 x4 x5 x6 x7 = denseAll (val_main_v16 (F := Ideal) x0 x1 x2 x3 x4 x5) (wT x6) (biasVec x7) := by
  funext i
  have hl : ∀ k : Fin 128, lidx_main_v18 i k = ix2 (i 0) k := fun k => funext fun a => Fin.ext (by match a with | ⟨0, _⟩ => rfl | ⟨1, _⟩ => rfl)
  have hr : ∀ k : Fin 128, idx_main_v17 (ridx_main_v18 i k) = ix2 (i 1) k := fun k => funext fun a => Fin.ext (by match a with | ⟨0, _⟩ => rfl | ⟨1, _⟩ => rfl)
  have hb : idx_main_v19 (idx_main_v20 i) = ix1 (i 1) := funext fun a => Fin.ext (by match a with | ⟨0, _⟩ => rfl)
  rw [val_main_v21_apply, val_main_v18_apply, val_main_v20_apply, val_main_v19_apply]
  simp only [val_main_v17_apply, hl, hr, hb]
  rfl

/-- Aggregation 2: the product of the adjacency matrix with the dense map's output. -/
theorem agg2 : val_main_v22 (F := Ideal) x0 x1 x2 x3 x4 x5 x6 x7 = aggAll x0 (val_main_v21 (F := Ideal) x0 x1 x2 x3 x4 x5 x6 x7) := by
  funext i
  have hl : ∀ k : Fin 10000, lidx_main_v22 i k = ix2 (i 0) k := fun k => funext fun a => Fin.ext (by match a with | ⟨0, _⟩ => rfl | ⟨1, _⟩ => rfl)
  have hr : ∀ k : Fin 10000, ridx_main_v22 i k = ix2 k (i 1) := fun k => funext fun a => Fin.ext (by match a with | ⟨0, _⟩ => rfl | ⟨1, _⟩ => rfl)
  rw [val_main_v22_apply]
  simp only [hl, hr]
  rfl

/-- Normalisation 2: divide by √1.00001, scale by γ, shift by β, rectify — the division folded into the scale. -/
theorem act2 : val_main_v33 (F := Ideal) x0 x1 x2 x3 x4 x5 x6 x7 x8 x9 = actAll (val_main_v22 (F := Ideal) x0 x1 x2 x3 x4 x5 x6 x7) (scale x8) (biasVec x9) := by
  funext j
  have hg : idx_main_v27 (idx_main_v28 j) = ix1 (j 1) := funext fun a => Fin.ext (by match a with | ⟨0, _⟩ => rfl)
  have hbe : idx_main_v30 (idx_main_v31 j) = ix1 (j 1) := funext fun a => Fin.ext (by match a with | ⟨0, _⟩ => rfl)
  rw [val_main_v33_apply, val_main_v32_apply, val_main_v29_apply, val_main_v26_apply, val_main_v25_apply,
    val_main_v24_apply, val_main_v23_apply, val_main_cst_0_apply, val_main_v28_apply, val_main_v27_apply,
    val_main_v31_apply, val_main_v30_apply, val_main_call1_v0_apply, val_main_call1_cst_apply, hg, hbe]
  show max (Ideal.div (val_main_v22 (F := Ideal) x0 x1 x2 x3 x4 x5 x6 x7 j) (Ideal.sqrt (Ideal.ofBits .f32 0x3F800054#32)) * x8 (ix1 (j 1))
      + x9 (ix1 (j 1))) (Ideal.ofBits .f32 0x00000000#32) = _
  rw [div_std_mul]
  rfl

/-- Dense map 3: the product with the transposed weights plus the bias spread over the rows. -/
theorem dense3 : val_main_v38 (F := Ideal) x0 x1 x2 x3 x4 x5 x6 x7 x8 x9 x10 x11 = denseAll (val_main_v33 (F := Ideal) x0 x1 x2 x3 x4 x5 x6 x7 x8 x9) (wT x10) (biasVec x11) := by
  funext i
  have hl : ∀ k : Fin 128, lidx_main_v35 i k = ix2 (i 0) k := fun k => funext fun a => Fin.ext (by match a with | ⟨0, _⟩ => rfl | ⟨1, _⟩ => rfl)
  have hr : ∀ k : Fin 128, idx_main_v34 (ridx_main_v35 i k) = ix2 (i 1) k := fun k => funext fun a => Fin.ext (by match a with | ⟨0, _⟩ => rfl | ⟨1, _⟩ => rfl)
  have hb : idx_main_v36 (idx_main_v37 i) = ix1 (i 1) := funext fun a => Fin.ext (by match a with | ⟨0, _⟩ => rfl)
  rw [val_main_v38_apply, val_main_v35_apply, val_main_v37_apply, val_main_v36_apply]
  simp only [val_main_v34_apply, hl, hr, hb]
  rfl

/-- Aggregation 3: the product of the adjacency matrix with the dense map's output. -/
theorem agg3 : val_main_v39 (F := Ideal) x0 x1 x2 x3 x4 x5 x6 x7 x8 x9 x10 x11 = aggAll x0 (val_main_v38 (F := Ideal) x0 x1 x2 x3 x4 x5 x6 x7 x8 x9 x10 x11) := by
  funext i
  have hl : ∀ k : Fin 10000, lidx_main_v39 i k = ix2 (i 0) k := fun k => funext fun a => Fin.ext (by match a with | ⟨0, _⟩ => rfl | ⟨1, _⟩ => rfl)
  have hr : ∀ k : Fin 10000, ridx_main_v39 i k = ix2 k (i 1) := fun k => funext fun a => Fin.ext (by match a with | ⟨0, _⟩ => rfl | ⟨1, _⟩ => rfl)
  rw [val_main_v39_apply]
  simp only [hl, hr]
  rfl

/-- The reference's result, as a function of its twelve arguments, is the encoder. -/
theorem result_eq : val_main_v39 (F := Ideal) x0 x1 x2 x3 x4 x5 x6 x7 x8 x9 x10 x11 = encoder x0 x1 x2 x3 x4 x5 x6 x7 x8 x9 x10 x11 := by
  rw [agg3, dense3, act2, agg2, dense2, act1, agg1, dense1]
  unfold encoder
  rw [layerAll_stages, layerAll_stages]

end Cert.ReferenceIdeal.RefValue

end
-- ==== Proof.lean ====
/-
  A three-layer graph-convolution encoder on 10000 nodes with 128 features: the tiled kernel and the whole-array
  reference compute the same function of their twelve arguments at the exact (extended-real) values.

  Both programs compute  A · layer₂(A · layer₁(A · (x · W₁ᵀ + b₁)))  where a layer normalises by 1 / √1.00001,
  scales by γ, shifts by β, rectifies, and applies the next dense map  h ↦ h · Wᵀ + b.

  The kernel is four launches after a stretch of host operations.  The host stretch transposes the weights, recasts
  the biases and shifts as rows and folds the normalising constant into the scales  γ · (1 / √1.00001).  The first
  launch applies the first dense map to all rows at once; the second and third walk the adjacency matrix in 25
  blocks of 400 rows, and for each block aggregate it against the previous output, scale, shift, rectify and apply
  the next dense map (the second also keeps a copy of the adjacency matrix); the last aggregates each block of
  400 adjacency rows against the third launch's output.  Because the output at a node depends on that node's
  adjacency row only, the blocks written by the 25 grid points are the corresponding rows of one whole-array
  function, and they cover the array.

  The reference divides the aggregated features by √1.00001 and then multiplies by γ; the kernel multiplies by
  γ · (1 / √1.00001).  √1.00001 is a nonzero real, so on the extended reals division by it is multiplication by its
  reciprocal, and the two agree by commutativity and associativity of the product — for every extended real, so
  the finiteness of the inputs is not used.  A change of float format keeps every value, a matrix product into a
  zero accumulator and the host's product are the same sum, and the tiling does not change a row's sum.

  The three frames are the generated ones (the reference's is its generated run with the result dropped); the
  idealization rewrote no operation, so its claim is trivial.
-/
import proofs.«147455_g11012296147170_week1_w3_712_6_alg».proof.Defs
import proofs.«147455_g11012296147170_week1_w3_712_6_alg».proof.Proof.Gen.Kernel
import proofs.«147455_g11012296147170_week1_w3_712_6_alg».proof.Proof.Gen.Kernel.Skeleton
import proofs.«147455_g11012296147170_week1_w3_712_6_alg».proof.Proof.Gen.Kernel.Launch
import proofs.«147455_g11012296147170_week1_w3_712_6_alg».proof.Proof.Gen.Kernel.Points
import proofs.«147455_g11012296147170_week1_w3_712_6_alg».proof.Proof.Gen.Kernel.Frame
import proofs.«147455_g11012296147170_week1_w3_712_6_alg».proof.Proof.Gen.KernelIdeal
import proofs.«147455_g11012296147170_week1_w3_712_6_alg».proof.Proof.Gen.KernelIdeal.Skeleton
import proofs.«147455_g11012296147170_week1_w3_712_6_alg».proof.Proof.Gen.KernelIdeal.Launch
import proofs.«147455_g11012296147170_week1_w3_712_6_alg».proof.Proof.Gen.KernelIdeal.Points
import proofs.«147455_g11012296147170_week1_w3_712_6_alg».proof.Proof.Gen.KernelIdeal.Frame
import proofs.«147455_g11012296147170_week1_w3_712_6_alg».proof.Proof.Gen.ReferenceIdeal
import proofs.«147455_g11012296147170_week1_w3_712_6_alg».proof.Proof.Gen.ReferenceIdeal.Run
import proofs.«147455_g11012296147170_week1_w3_712_6_alg».proof.Proof.Gen.ReferenceIdeal.Read
import proofs.«147455_g11012296147170_week1_w3_712_6_alg».proof.Proof.Gen.Pre_finite_inputs
import proofs.«147455_g11012296147170_week1_w3_712_6_alg».proof.Proof.KernelRun
import proofs.«147455_g11012296147170_week1_w3_712_6_alg».proof.Proof.Contents
import proofs.«147455_g11012296147170_week1_w3_712_6_alg».proof.Proof.RefSide
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- The idealized kernel runs, and leaves its arguments as launched. -/
theorem frame_kernel_ideal : Cert.frame_KernelIdeal := fun m ρ _ => Cert.KernelIdeal.Gen.frame m ρ

/-- The idealized reference runs, and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the encoder of those arguments in
    their result buffers. -/
theorem algebraic : Cert.algebraic_KernelIdeal_ReferenceIdeal := by
  intro m ρ m' ρ' _ hagree
  refine ⟨fun c => Cert.Encoder.encoder (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Contents.result m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    refine (Cert.ReferenceIdeal.Read.val_main_v39_eq (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))).trans ?_
    rw [Cert.ReferenceIdeal.RefValue.result_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
